-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x300 : Shape := ⟨2, ![200000, 300]⟩
abbrev S32x900 : Shape := ⟨2, ![32, 900]⟩
abbrev S32 : Shape := ⟨1, ![32]⟩
abbrev S_ : Shape := ⟨0, ![]⟩

class Facts : Prop where
  bcast_S_S200000x300 : S_.BroadcastsInDim S200000x300 (![] : Fin 0 → Fin S200000x300.rank)
  reducesTo_S200000x300_S_d0_1 : S200000x300.ReducesTo [0, 1] S_
  h_S_ : 0 < S_.numel
  bcast_S_S32x900 : S_.BroadcastsInDim S32x900 (![] : Fin 0 → Fin S32x900.rank)
  reducesTo_S32x900_S_d0_1 : S32x900.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S200000x300 .f32) (main_arg1 : FVec F S32x900 .f32) (main_arg2 : FVec F S32 .f32) : IVec S_ 1 :=
  let main_v0 : FVec F S200000x300 .f32 := Host.absf main_arg0
  let main_cst : FVec F S_ .f32 := constant S_ .f32 0x7F800000#32
  let main_v1 : FVec F S200000x300 .f32 := broadcastInDim S200000x300 ![] bcast_S_S200000x300 main_cst
  let main_v2 : IVec S200000x300 1 := cmpf .olt main_v0 main_v1
  let main_c : IVec S_ 1 := constantI S_ 1 1#1
  let main_v3 : IVec S_ 1 := (fun x v => Host.reduce IntOp.andi x v reducesTo_S200000x300_S_d0_1 h_S_) main_v2 main_c
  let main_v4 : FVec F S32x900 .f32 := Host.absf main_arg1
  let main_cst_0 : FVec F S_ .f32 := constant S_ .f32 0x7F800000#32
  let main_v5 : FVec F S32x900 .f32 := broadcastInDim S32x900 ![] bcast_S_S32x900 main_cst_0
  let main_v6 : IVec S32x900 1 := cmpf .olt main_v4 main_v5
  let main_c_1 : IVec S_ 1 := constantI S_ 1 1#1
  let main_v7 : IVec S_ 1 := (fun x v => Host.reduce IntOp.andi x v reducesTo_S32x900_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S200000x300 : Shape := ⟨2, ![200000, 300]⟩
abbrev S32x900 : Shape := ⟨2, ![32, 900]⟩
abbrev S32 : Shape := ⟨1, ![32]⟩
abbrev S_ : Shape := ⟨0, ![]⟩
abbrev S200000x384 : Shape := ⟨2, ![200000, 384]⟩
abbrev S32x3x300 : Shape := ⟨3, ![32, 3, 300]⟩
abbrev S32x3x384 : Shape := ⟨3, ![32, 3, 384]⟩
abbrev S32x1152 : Shape := ⟨2, ![32, 1152]⟩
abbrev S200712x384 : Shape := ⟨2, ![200712, 384]⟩
abbrev S32x1 : Shape := ⟨2, ![32, 1]⟩
abbrev S32x200704 : Shape := ⟨2, ![32, 200704]⟩
abbrev S32x2048 : Shape := ⟨2, ![32, 2048]⟩
abbrev S2x2056x384 : Shape := ⟨3, ![2, 2056, 384]⟩
abbrev S2 : Shape := ⟨1, ![2]⟩
abbrev S1 : Shape := ⟨1, ![1]⟩
abbrev S1x2056x384 : Shape := ⟨3, ![1, 2056, 384]⟩
abbrev S2056x384 : Shape := ⟨2, ![2056, 384]⟩
abbrev S2048x384 : Shape := ⟨2, ![2048, 384]⟩
abbrev S2048x1152 : Shape := ⟨2, ![2048, 1152]⟩
abbrev S32x199998 : Shape := ⟨2, ![32, 199998]⟩

abbrev nBuf : Space → Nat
  | .hbm => 17
  | .vmem => 5
  | .smem => 0
  | _ => 0

abbrev bufTy : (tb : Table) → Fin (tcTables nBuf tb) → BufTy
  | .hbm, ⟨0, _⟩ => ⟨S200000x300, .f32⟩
  | .hbm, ⟨1, _⟩ => ⟨S32x900, .f32⟩
  | .hbm, ⟨2, _⟩ => ⟨S32, .f32⟩
  | .hbm, ⟨3, _⟩ => ⟨S_, .i32⟩
  | .hbm, ⟨4, _⟩ => ⟨S_, .f32⟩
  | .hbm, ⟨5, _⟩ => ⟨S200000x384, .f32⟩
  | .hbm, ⟨6, _⟩ => ⟨S32x3x300, .f32⟩
  | .hbm, ⟨7, _⟩ => ⟨S_, .i32⟩
  | .hbm, ⟨8, _⟩ => ⟨S_, .f32⟩
  | .hbm, ⟨9, _⟩ => ⟨S32x3x384, .f32⟩
  | .hbm, ⟨10, _⟩ => ⟨S32x1152, .f32⟩
  | .hbm, ⟨11, _⟩ => ⟨S_, .i32⟩
  | .hbm, ⟨12, _⟩ => ⟨S_, .f32⟩
  | .hbm, ⟨13, _⟩ => ⟨S200712x384, .f32⟩
  | .hbm, ⟨14, _⟩ => ⟨S32x1, .f32⟩
  | .hbm, ⟨15, _⟩ => ⟨S32x200704, .f32⟩
  | .hbm, ⟨16, _⟩ => ⟨S32x199998, .f32⟩
  | .local _ .vmem, ⟨0, _⟩ => ⟨S32x1152, .f32⟩
  | .local _ .vmem, ⟨1, _⟩ => ⟨S32x1, .f32⟩
  | .local _ .vmem, ⟨2, _⟩ => ⟨S32x2048, .f32⟩
  | .local _ .vmem, ⟨3, _⟩ => ⟨S32x2048, .f32⟩
  | .local _ .vmem, ⟨4, _⟩ => ⟨S2x2056x384, .f32⟩
  | _, _ => ⟨S200000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call2_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![98], ![false]⟩

def k0_cond1 (i : grid0.Coords) : BitVec 1 :=
  let arg0 : BitVec 32 := BitVec.ofNat 32 (i 0).val
  let c0_i32_4 : BitVec 32 := 0#32
  let v11 : BitVec 1 := Scalar.cmpi .eq arg0 c0_i32_4
  let v12 : BitVec 32 := Scalar.extui v11
  let c0_i32_5 : BitVec 32 := 0#32
  let v13 : BitVec 1 := Scalar.cmpi .ne v12 c0_i32_5
  v13

def k0_mult1 : BitVec 32 :=
  let c0_i32_19 : BitVec 32 := 0#32
  c0_i32_19
def k0_mult2 (i : grid0.Coords) : BitVec 32 :=
  let arg0 : BitVec 32 := BitVec.ofNat 32 (i 0).val
  let c2048_i32 : BitVec 32 := 2048#32
  let v14 : BitVec 32 := Scalar.muli arg0 c2048_i32
  v14
def k0_off1 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_6 : BitVec 32 := 0#32
  let c0_i32_7 : BitVec 32 := 0#32
  ![v9.toNat, 0, 0]
def k0_off3 (i : grid0.Coords) : Fin 2 → Nat :=
  let arg0 : BitVec 32 := BitVec.ofNat 32 (i 0).val
  let c2048_i32 : BitVec 32 := 2048#32
  let v14 : BitVec 32 := Scalar.muli arg0 c2048_i32
  let v15 : BitVec 32 := v14
  let c0_i32_8 : BitVec 32 := 0#32
  ![v15.toNat, 0]
def k0_cond2 (i : grid0.Coords) : BitVec 1 :=
  let arg0 : BitVec 32 := BitVec.ofNat 32 (i 0).val
  let c1_i32_9 : BitVec 32 := 1#32
  let v21 : BitVec 32 := Scalar.addi arg0 c1_i32_9
  let c98_i32 : BitVec 32 := 98#32
  let v22 : BitVec 1 := Scalar.cmpi .slt v21 c98_i32
  let v23 : BitVec 32 := Scalar.extui v22
  let c0_i32_10 : BitVec 32 := 0#32
  let v24 : BitVec 1 := Scalar.cmpi .ne v23 c0_i32_10
  v24

def k0_mult3 (i : grid0.Coords) : BitVec 32 :=
  let arg0 : BitVec 32 := BitVec.ofNat 32 (i 0).val
  let c1_i32_19 : BitVec 32 := 1#32
  let v44 : BitVec 32 := Scalar.addi arg0 c1_i32_19
  let c2048_i32_20 : BitVec 32 := 2048#32
  let v45 : BitVec 32 := Scalar.muli v44 c2048_i32_20
  v45
def k0_off4 (i : grid0.Coords) : Fin 1 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  ![v10.toNat]
def k0_off5 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let c0_i32_21 : BitVec 32 := 0#32
  let c0_i32_22 : BitVec 32 := 0#32
  ![v10.toNat, 0, 0]
def k0_off6 (i : grid0.Coords) : Fin 2 → Nat :=
  let arg0 : BitVec 32 := BitVec.ofNat 32 (i 0).val
  let c1_i32_19 : BitVec 32 := 1#32
  let v44 : BitVec 32 := Scalar.addi arg0 c1_i32_19
  let c2048_i32_20 : BitVec 32 := 2048#32
  let v45 : BitVec 32 := Scalar.muli v44 c2048_i32_20
  let v46 : BitVec 32 := v45
  let c0_i32_23 : BitVec 32 := 0#32
  ![v46.toNat, 0]
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v25 : Index := Scalar.indexCast v9
  let c0 : Index := 0#32
  let c0_11 : Index := 0#32
  ![v25.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x1152 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S200000x300_S200000x384_000_0840 : S200000x300.Pads (![0, 0] : Fin 2 → Nat) ![0, 84] ![0, 0] S200000x384
  h_S_ : 0 < S_.numel
  shapeCasts_S32x900_S32x3x300 : S32x900.ShapeCasts S32x3x300
  pads_S32x3x300_S32x3x384_000_000_0840 : S32x3x300.Pads (![0, 0, 0] : Fin 3 → Nat) ![0, 0, 84] ![0, 0, 0] S32x3x384
  shapeCasts_S32x3x384_S32x1152 : S32x3x384.ShapeCasts S32x1152
  pads_S200000x384_S200712x384_07120_000 : S200000x384.Pads (![0, 0] : Fin 2 → Nat) ![712, 0] ![0, 0] S200712x384
  shapeCasts_S32_S32x1 : S32.ShapeCasts S32x1
  inb_S2_S1_0 : ∀ a, (![0] : Fin 1 → Nat) a + S1.size a ≤ S2.size a
  squeezes_S1_S_ : S1.Squeezes S_
  inb_S2x2056x384_S1x2056x384_0_0_0 : ∀ a, (![0, 0, 0] : Fin 3 → Nat) a + S1x2056x384.size a ≤ S2x2056x384.size a
  squeezes_S1x2056x384_S2056x384 : S1x2056x384.Squeezes S2056x384
  inb_S200712x384_S2056x384_0_0 : ∀ a, (![0, 0] : Fin 2 → Nat) a + S2056x384.size a ≤ S200712x384.size a
  h_S1x2056x384 : 0 < S1x2056x384.numel
  shapeCasts_S1x2056x384_S2056x384 : S1x2056x384.ShapeCasts S2056x384
  bitsLt_bf16_f32 : FTy.bits .bf16 < FTy.bits .f32
  slices_S2056x384_o0_0_S2048x384 : S2056x384.Slices ![0, 0] S2048x384
  slices_S2056x384_o1_0_S2048x384 : S2056x384.Slices ![1, 0] S2048x384
  slices_S2056x384_o2_0_S2048x384 : S2056x384.Slices ![2, 0] S2048x384
  concatenates_S2048x384_S2048x384_S2048x384_S2048x1152_d1 : Shape.Concatenates [S2048x384, S2048x384, S2048x384] S2048x1152 1
  inb_S32x1152_S32x1152_0_0 : ∀ a, (![0, 0] : Fin 2 → Nat) a + S32x1152.size a ≤ S32x1152.size a
  h_S32x1152 : 0 < S32x1152.numel
  shapeCasts_S32x1152_S32x1152 : S32x1152.ShapeCasts S32x1152
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x2048 : S32x1.Broadcasts S32x2048
  inb_S32x2048_S32x2048_0_0 : ∀ a, (![0, 0] : Fin 2 → Nat) a + S32x2048.size a ≤ S32x2048.size a
  h_S32x2048 : 0 < S32x2048.numel
  slices_S32x200704_S32x199998_0_0 : S32x200704.Slices ![0, 0] S32x199998
  dot_S32x1152_S2048x1152_S32x2048_1_1_0_0_n_n_wf : DotDims.WF S32x1152 S2048x1152 S32x2048 [1] [1] [0] [0] [] []
  hcc0_scratch1 : 4 + S2.numel ≤ 6
  hrank0 : 0 < grid0.rank
  k0_mult1_dvd : ∀ i : grid0.Coords, ∀ (k0_h1 : k0_cond1 i = 1#1), 2048 ∣ k0_mult1.toNat
  k0_mult2_dvd : ∀ i : grid0.Coords, 2048 ∣ (k0_mult2 i).toNat
  k0_off1_inb : ∀ i : grid0.Coords, ∀ a, (k0_off1 i) a + S1.size a ≤ S2.size a
  k0_off2_inb : ∀ i : grid0.Coords, ∀ a, (k0_off2 i) a + S1x2056x384.size a ≤ S2x2056x384.size a
  k0_off3_inb : ∀ i : grid0.Coords, ∀ a, (k0_off3 i) a + S2056x384.size a ≤ S200712x384.size a
  k0_mult3_dvd : ∀ i : grid0.Coords, ∀ (k0_h2 : k0_cond2 i = 1#1), 2048 ∣ (k0_mult3 i).toNat
  k0_off4_inb : ∀ i : grid0.Coords, ∀ (k0_h2 : k0_cond2 i = 1#1), ∀ a, (k0_off4 i) a + S1.size a ≤ S2.size a
  k0_off5_inb : ∀ i : grid0.Coords, ∀ (k0_h2 : k0_cond2 i = 1#1), ∀ a, (k0_off5 i) a + S1x2056x384.size a ≤ S2x2056x384.size a
  k0_off6_inb : ∀ i : grid0.Coords, ∀ (k0_h2 : k0_cond2 i = 1#1), ∀ a, (k0_off6 i) a + S2056x384.size a ≤ S200712x384.size a
  k0_off7_inb : ∀ i : grid0.Coords, ∀ a, (k0_off7 i) a + S1x2056x384.size a ≤ S2x2056x384.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x1152.size a ≤ S32x1152.size a
  hwx0_0 : ∀ i : grid0.Coords, EltTy.bits .f32 = 32 ∨ (Rect.block (s := S32x1152) S32x1152.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S32x1.size a
  hwx0_1 : ∀ i : grid0.Coords, EltTy.bits .f32 = 32 ∨ (Rect.block (s := S32x1) S32x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_3 i = cc0_transform_3 i'
  hinb0_2 : ∀ (i : grid0.Coords) a, (cc0_transform_3 i a + 1) * S32x2048.size a ≤ S32x200704.size a
  hwx0_2 : ∀ i : grid0.Coords, EltTy.bits .f32 = 32 ∨ (Rect.block (s := S32x200704) S32x2048.size (cc0_transform_3 i) (hinb0_2 i)).WholeWords (EltTy.packing .f32)

variable [Facts₀]

abbrev cc0_scratch1 : DmaSems sig S2 := SemArray.consecutive 4 S2 hcc0_scratch1
def dot_S32x1152_S2048x1152_S32x2048_1_1_0_0_n_n : DotDims S32x1152 S2048x1152 S32x2048 where
  lhsContracting := [1]
  rhsContracting := [1]
  lhsNonContracting := [0]
  rhsNonContracting := [0]
  lhsBatch := []
  rhsBatch := []
  wf := dot_S32x1152_S2048x1152_S32x2048_1_1_0_0_n_n_wf

abbrev win0_0 : Pipeline.Window sig grid0 :=
  Pipeline.Window.ofSpec (Memref.whole main_v3) S32x1152.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v5) S32x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S32x2048.size cc0_transform_3 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S200000x300 : Shape := ⟨2, ![200000, 300]⟩
abbrev S32x900 : Shape := ⟨2, ![32, 900]⟩
abbrev S32 : Shape := ⟨1, ![32]⟩
abbrev S199998 : Shape := ⟨1, ![199998]⟩
abbrev S199998x1 : Shape := ⟨2, ![199998, 1]⟩
abbrev S3 : Shape := ⟨1, ![3]⟩
abbrev S1x3 : Shape := ⟨2, ![1, 3]⟩
abbrev S199998x3 : Shape := ⟨2, ![199998, 3]⟩
abbrev S_ : Shape := ⟨0, ![]⟩
abbrev S199998x3x1 : Shape := ⟨3, ![199998, 3, 1]⟩
abbrev S199998x3x300 : Shape := ⟨3, ![199998, 3, 300]⟩
abbrev S199998x900 : Shape := ⟨2, ![199998, 900]⟩
abbrev S900x32 : Shape := ⟨2, ![900, 32]⟩
abbrev S199998x32 : Shape := ⟨2, ![199998, 32]⟩
abbrev S1x32 : Shape := ⟨2, ![1, 32]⟩
abbrev S32x199998 : Shape := ⟨2, ![32, 199998]⟩

abbrev nBuf : Space → Nat
  | .hbm => 29
  | .vmem => 0
  | .smem => 0
  | _ => 0

abbrev bufTy : (tb : Table) → Fin (tcTables nBuf tb) → BufTy
  | .hbm, ⟨0, _⟩ => ⟨S200000x300, .f32⟩
  | .hbm, ⟨1, _⟩ => ⟨S32x900, .f32⟩
  | .hbm, ⟨2, _⟩ => ⟨S32, .f32⟩
  | .hbm, ⟨3, _⟩ => ⟨S199998, .i32⟩
  | .hbm, ⟨4, _⟩ => ⟨S199998x1, .i32⟩
  | .hbm, ⟨5, _⟩ => ⟨S3, .i32⟩
  | .hbm, ⟨6, _⟩ => ⟨S1x3, .i32⟩
  | .hbm, ⟨7, _⟩ => ⟨S199998x3, .i32⟩
  | .hbm, ⟨8, _⟩ => ⟨S199998x3, .i32⟩
  | .hbm, ⟨9, _⟩ => ⟨S199998x3, .i32⟩
  | .hbm, ⟨10, _⟩ => ⟨S_, .i32⟩
  | .hbm, ⟨11, _⟩ => ⟨S199998x3, .i32⟩
  | .hbm, ⟨12, _⟩ => ⟨S199998x3, .i1⟩
  | .hbm, ⟨13, _⟩ => ⟨S_, .i32⟩
  | .hbm, ⟨14, _⟩ => ⟨S199998x3, .i32⟩
  | .hbm, ⟨15, _⟩ => ⟨S199998x3, .i32⟩
  | .hbm, ⟨16, _⟩ => ⟨S199998x3, .i32⟩
  | .hbm, ⟨17, _⟩ => ⟨S199998x3x1, .i32⟩
  | .hbm, ⟨18, _⟩ => ⟨S199998x3x300, .f32⟩
  | .hbm, ⟨19, _⟩ => ⟨S199998x900, .f32⟩
  | .hbm, ⟨20, _⟩ => ⟨S900x32, .f32⟩
  | .hbm, ⟨21, _⟩ => ⟨S199998x32, .f32⟩
  | .hbm, ⟨22, _⟩ => ⟨S1x32, .f32⟩
  | .hbm, ⟨23, _⟩ => ⟨S199998x32, .f32⟩
  | .hbm, ⟨24, _⟩ => ⟨S199998x32, .f32⟩
  | .hbm, ⟨25, _⟩ => ⟨S_, .f32⟩
  | .hbm, ⟨26, _⟩ => ⟨S199998x32, .f32⟩
  | .hbm, ⟨27, _⟩ => ⟨S199998x32, .f32⟩
  | .hbm, ⟨28, _⟩ => ⟨S32x199998, .f32⟩
  | _, _ => ⟨S200000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]

class Facts₀ : Prop where
  bcast_S199998_S199998x1_0 : S199998.BroadcastsInDim S199998x1 (![0] : Fin 1 → Fin S199998x1.rank)
  bcast_S3_S1x3_1 : S3.BroadcastsInDim S1x3 (![1] : Fin 1 → Fin S1x3.rank)
  bcast_S199998x1_S199998x3_0_1 : S199998x1.BroadcastsInDim S199998x3 (![0, 1] : Fin 2 → Fin S199998x3.rank)
  bcast_S1x3_S199998x3_0_1 : S1x3.BroadcastsInDim S199998x3 (![0, 1] : Fin 2 → Fin S199998x3.rank)
  bcast_S_S199998x3 : S_.BroadcastsInDim S199998x3 (![] : Fin 0 → Fin S199998x3.rank)
  bcast_S199998x3_S199998x3x1_0_1 : S199998x3.BroadcastsInDim S199998x3x1 (![0, 1] : Fin 2 → Fin S199998x3x1.rank)
  shapeCasts_S199998x3x300_S199998x900 : S199998x3x300.ShapeCasts S199998x900
  transposes_S32x900_S900x32_1_0 : S32x900.Transposes [1, 0] S900x32
  bcast_S32_S1x32_1 : S32.BroadcastsInDim S1x32 (![1] : Fin 1 → Fin S1x32.rank)
  bcast_S1x32_S199998x32_0_1 : S1x32.BroadcastsInDim S199998x32 (![0, 1] : Fin 2 → Fin S199998x32.rank)
  bcast_S_S199998x32 : S_.BroadcastsInDim S199998x32 (![] : Fin 0 → Fin S199998x32.rank)
  transposes_S199998x32_S32x199998_1_0 : S199998x32.Transposes [1, 0] S32x199998
  gather_S200000x300_S199998x3x1_S199998x3x300_2_0_n_n_0_2_1300_wf : GatherDims.WF S200000x300 S199998x3x1 S199998x3x300 [2] [0] [] [0] [] 2 ![1, 300]
  dot_S199998x900_S900x32_S199998x32_1_0_0_1_n_n_wf : DotDims.WF S199998x900 S900x32 S199998x32 [1] [0] [0] [1] [] []

variable [Facts₀]

def gather_S200000x300_S199998x3x1_S199998x3x300_2_0_n_n_0_2_1300 : GatherDims S200000x300 S199998x3x1 S199998x3x300 where
  offsetDims := [2]
  collapsedSliceDims := [0]
  operandBatchingDims := []
  startIndicesBatchingDims := []
  startIndexMap := [0]
  indexVectorDim := 2
  sliceSizes := ![1, 300]
  wf := gather_S200000x300_S199998x3x1_S199998x3x300_2_0_n_n_0_2_1300_wf
def dot_S199998x900_S900x32_S199998x32_1_0_0_1_n_n : DotDims S199998x900 S900x32 S199998x32 where
  lhsContracting := [1]
  rhsContracting := [0]
  lhsNonContracting := [0]
  rhsNonContracting := [1]
  lhsBatch := []
  rhsBatch := []
  wf := dot_S199998x900_S900x32_S199998x32_1_0_0_1_n_n_wf

class Facts : Prop extends Facts₀ where

variable [Facts]
-- ==== Proof.KernelBlock.lean ====
/-
  What the kernel's body stores at grid point `t`, whatever the case of its two conditionals: the body's arithmetic
  (`stored`) of the weight block, the bias column, and the SLAB of 2056 rows of the padded sequence that the transfer
  waited at `t` landed in slot `t % 2` of the two-slot scratch — rows `2048 t … 2048 t + 2055` of the padded sequence,
  read through the wait's source slice.

  The scratch is [2, 2056, 384]; slot `s` is its rows `(s, ·, ·)`, seen as a [2056, 384] array, and the body loads it as
  a [1, 2056, 384] box at offsets `(s, 0, 0)`. Entry `(u, q, e)` of that box and entry `(q, e)` of the slot are the same
  element `(s, q, e)` of the scratch (`box_is_slot`), so a load of the box, of contents a transfer left written over the
  whole slot, reads what the transfer wrote at `(q, e)` (`slot_read`). Each case's stores, read back, are then `stored`
  (`out_eq_A`, `out_eq_B`, `out_eq_C`), and so is the account of the output's staging buffer point by point (`outsAt_eq`).
-/
import proofs.«104466_j42159398977944_2_alg».proof.Proof.Gen.KernelIdeal.Frame
import Idealize.ShloMosaic.Lib.Pipeline.Value
import Idealize.ShloMosaic.Lib.ValueIdx
import Idealize.ShloMosaic.Lib.Tactic

noncomputable section

namespace Cert.KernelIdeal.Block

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

theorem hz2 : (![0, 0] : Fin 2 → Nat) = fun _ => 0 := funext fun a => by fin_cases a <;> rfl

/-- The index `(q, e)` behind the unit axis of a box index `(u, q, e)`. -/
abbrev behind (y : S1x2056x384.Idx) : S2056x384.Idx := ix2 (y 1) (y 2)

omit [FloatOps F] in
/-- Entry `(u, q, e)` of the box at offsets `(s, 0, 0)` and entry `(q, e)` of slot `s` are one element of the scratch:
    `(s, q, e)`. The slot's index gains its leading coordinate `0` when the squeezed axis is put back. -/
theorem box_is_slot (s : Fin 2) (inb) (y : S1x2056x384.Idx) :
    (Rect.unit (s := S2x2056x384) ![s.val, 0, 0] S1x2056x384.size inb).toLoadRect.idx y = (rslot0_0 s).view.emb (behind y) := by
  funext a
  apply Fin.ext
  show (![s.val, 0, 0] : Fin 3 → Nat) a + 1 * (y a).val
    = (![s.val, 0, 0] : Fin 3 → Nat) a + 1 * ((Shape.reshapeEquiv (Shape.Squeezes.numel_eq squeezes_S1x2056x384_S2056x384) (behind y)) a).val
  rw [Shape.reshapeEquiv_cons_one (n := 2) (d := ![2056, 384])]
  match a with
  | ⟨0, _⟩ =>
    have hu : (y 0).val < 1 := (y 0).isLt
    show s.val + 1 * (y 0).val = s.val + 1 * 0
    omega
  | ⟨1, _⟩ => rfl
  | ⟨2, _⟩ => rfl

omit [FloatOps F] in
/-- The load through the scratch at point `t` is at slot `t % 2`'s rows. -/
theorem off7_eq (t : Fin cfg0.N) : k0_off7 (grid0.coords t) = ![(Ring.sl 2 t.val).val, 0, 0] := coff0_0_10 t

set_option maxRecDepth 16384 in
/-- A load of slot `s`'s box through the scratch, of contents written over the whole slot with `x` (over anything),
    reads `x` at the index behind the unit axis: the slot's view reads its own whole-slot write back, and the box's
    element is the slot's. -/
theorem slot_read (s : Fin 2) (x : S2056x384.Idx → Elt F .f32) (off : Fin 3 → Nat) (inb) (hoff : off = ![s.val, 0, 0]) (y : S1x2056x384.Idx) :
    (View.whole cc0_scratch0).readAt (Elt F) (Rect.unit (s := S2x2056x384) off S1x2056x384.size inb).toLoadRect
        ((rslot0_0 s).view.writes (Elt F) (rslot0_0 s).view.junk [⟨Rect.whole S2056x384, x⟩]) y
      = x (behind y) := by
  subst hoff
  have h := congrFun (View.read_writes_whole (rslot0_0 s).view ((rslot0_0 s).view.junk (Val := Elt F)) x) (behind y)
  rw [View.read_apply, ← box_is_slot s inb y] at h
  exact h

section Out
variable (c : Dev nD) (t : Fin cfg0.N) (a1 : Memref sig .tc .vmem S32x1152 .f32) (h1 : a1.IsWhole)
  (a2 : Memref sig .tc .vmem S32x1 .f32) (h2 : a2.IsWhole) (a4 : Memref sig .tc .vmem S32x2048 .f32) (h4 : a4.IsWhole)
  (x0 : Vec F S32x1152 .f32) (x1 : Vec F S32x1 .f32) (W : HbBuf0 (F := F) c hbM0_0)

/-- The slab the slot holds at point `t`: 2056 rows of the padded sequence from row `2048 t`, behind a unit axis. -/
abbrev slab : Vec F S1x2056x384 .f32 :=
  fun y => ReadAs.same.apply ((srcB0_0 (Ring.bk 98 t.val)).view.read (Elt F) W) (behind y)

/-- What the body stores at point `t`: its arithmetic of the slab, the weight block and the bias column. -/
abbrev stored : Vec F S32x2048 .f32 := k0_pay1 (k0_pay2 (slab c t W)) (k0_pay3 x0) x1

theorem out_eq_A (hc0 : cond0_0 (grid0.coords t)) (hc1 : cond0_1 (grid0.coords t)) :
    out0_A_2 c t a1 h1 a2 h2 a4 h4 hc0 hc1 x0 x1 W = stored c t x0 x1 W := by
  unfold out0_A_2
  rw [View.read_writes_eq_canon _ _ _ (cover0_A_2 c t a1 h1 a2 h2 a4 h4 hc0 hc1 x0 x1 W)]
  unfold kernelRun0_A
  dsimp only
  sl_unfold_words
  rw [View.canon_unit_zero hz2]
  simp only [View.readAt_eq_ld, h1.read_unread, h2.read_unread, View.ld_unit_zero (S := S32x1152) hz2, View.ld_unit_zero (S := S32x1) hz2]
  exact congrArg (fun v => k0_pay1 (k0_pay2 v) (k0_pay3 x0) x1) (funext fun y => slot_read _ _ _ _ (off7_eq t) y)

theorem out_eq_B (hc0 : ¬cond0_0 (grid0.coords t)) (hc1 : cond0_1 (grid0.coords t)) :
    out0_B_2 c t a1 h1 a2 h2 a4 h4 hc0 hc1 x0 x1 W = stored c t x0 x1 W := by
  unfold out0_B_2
  rw [View.read_writes_eq_canon _ _ _ (cover0_B_2 c t a1 h1 a2 h2 a4 h4 hc0 hc1 x0 x1 W)]
  unfold kernelRun0_B
  dsimp only
  sl_unfold_words
  rw [View.canon_unit_zero hz2]
  simp only [View.readAt_eq_ld, h1.read_unread, h2.read_unread, View.ld_unit_zero (S := S32x1152) hz2, View.ld_unit_zero (S := S32x1) hz2]
  exact congrArg (fun v => k0_pay1 (k0_pay2 v) (k0_pay3 x0) x1) (funext fun y => slot_read _ _ _ _ (off7_eq t) y)

theorem out_eq_C (hc0 : ¬cond0_0 (grid0.coords t)) (hc1 : ¬cond0_1 (grid0.coords t)) :
    out0_C_2 c t a1 h1 a2 h2 a4 h4 hc0 hc1 x0 x1 W = stored c t x0 x1 W := by
  unfold out0_C_2
  rw [View.read_writes_eq_canon _ _ _ (cover0_C_2 c t a1 h1 a2 h2 a4 h4 hc0 hc1 x0 x1 W)]
  unfold kernelRun0_C
  dsimp only
  sl_unfold_words
  rw [View.canon_unit_zero hz2]
  simp only [View.readAt_eq_ld, h1.read_unread, h2.read_unread, View.ld_unit_zero (S := S32x1152) hz2, View.ld_unit_zero (S := S32x1) hz2]
  exact congrArg (fun v => k0_pay1 (k0_pay2 v) (k0_pay3 x0) x1) (funext fun y => slot_read _ _ _ _ (off7_eq t) y)

/-- So the account of the output's staging buffer is that block at every point. -/
theorem outsAt_eq : outsAt0 m c t.val t.isLt = stored c t (iblk m c 0 t) (iblk m c 1 t) (V m c main_v4) := by
  have hN : t.val < 98 := lt_of_lt_of_eq t.isLt (show cfg0.N = 98 from N_0)
  by_cases h0 : t.val % 98 = 0
  · by_cases h1 : t.val < 97
    · rw [outsAt0_A m c t h0 h1]; exact out_eq_A c t _ _ _ _ _ _ _ _ _ _ _
    · exfalso; omega
  · by_cases h1 : t.val < 97
    · rw [outsAt0_B m c t h0 h1]; exact out_eq_B c t _ _ _ _ _ _ _ _ _ _ _
    · rw [outsAt0_C m c t h0 h1]; exact out_eq_C c t _ _ _ _ _ _ _ _ _ _ _
end Out

end Cert.KernelIdeal.Block

end
-- ==== Proof.KernelPayload.lean ====
/-
  The body's arithmetic read at an entry, at the ideal instance. For a slab `s` of 2056 rows of 384 lanes (behind a
  unit axis), a weight block `w` [32, 1152] and a bias column `b` [32, 1]:

    stored (f, r) = max (∑ k < 1152, w[f, k] · s[r + k / 384, k % 384]  +  b[f, 0]) 0        (f < 32, r < 2048).

  The three row-shifted windows of the slab laid side by side are one [2048, 1152] array whose entry `(r, k)` is the
  slab's `(r + k / 384, k % 384)` (`windows_apply`); the product with the weights contracts both operands' last axis
  (`product_apply`); the bias column is spread along the rows (`column_apply`); a change of float format is the identity.
-/
import proofs.«104466_j42159398977944_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen
open Idealize.ShloMosaic Idealize.ShloMosaic.ValueIdx

/-- A window of 2048 rows of a [2056, 384] array from row `j`: entry `(r, e)` is the array's `(r + j, e)`. -/
theorem window_apply {α : Type} (v : S2056x384.Idx → α) (j : Nat) (h : S2056x384.Slices ![j, 0] S2048x384)
    (r : Fin 2048) (e : Fin 384) (q : Fin 2056) (hq : q.val = r.val + j) :
    extractStridedSlice S2048x384 ![j, 0] v h (ix2 r e) = v (ix2 q e) :=
  extractStridedSlice_apply _ v h _ _ fun a => match a with
    | ⟨0, _⟩ => by show q.val = j + r.val; omega
    | ⟨1, _⟩ => by show e.val = 0 + e.val; omega

/-- The three windows side by side: entry `(r, k)` of the [2048, 1152] array is the slab's `(r + k / 384, k % 384)`. -/
theorem windows_apply (s : Vec Ideal S1x2056x384 .f32) (r : Fin 2048) (k : Fin 1152) :
    k0_pay2 (F := Ideal) s (ix2 r k)
      = s (ix3 (0 : Fin 1) (⟨r.val + k.val / 384, by have := r.isLt; have := k.isLt; omega⟩ : Fin 2056) (⟨k.val % 384, Nat.mod_lt _ (by decide)⟩ : Fin 384)) := by
  have hk := k.isLt
  have hr := r.isLt
  unfold k0_pay2
  rcases (by omega : k.val / 384 = 0 ∨ k.val / 384 = 1 ∨ k.val / 384 = 2) with h | h | h
  · refine (concatenate_apply_piece (1 : Fin 2) _ _ (ix2 r k) 0 (by show (0 : ℕ) < 3; decide) S2048x384 _ rfl rfl 0 rfl
      (ix2 r (⟨k.val % 384, Nat.mod_lt _ (by decide)⟩ : Fin 384)) ?_ ?_).trans ?_
    · intro b hb
      match b with
      | ⟨0, _⟩ => rfl
      | ⟨1, _⟩ => exact absurd rfl hb
    · show 0 + k.val % 384 = k.val; omega
    · refine (window_apply _ 0 _ r _ ⟨r.val + k.val / 384, by omega⟩ (by show r.val + k.val / 384 = r.val + 0; omega)).trans ?_
      exact shapeCast_1ab_ab_apply s _ _ _
  · refine (concatenate_apply_piece (1 : Fin 2) _ _ (ix2 r k) 1 (by show (1 : ℕ) < 3; decide) S2048x384 _ rfl rfl 384 rfl
      (ix2 r (⟨k.val % 384, Nat.mod_lt _ (by decide)⟩ : Fin 384)) ?_ ?_).trans ?_
    · intro b hb
      match b with
      | ⟨0, _⟩ => rfl
      | ⟨1, _⟩ => exact absurd rfl hb
    · show 384 + k.val % 384 = k.val; omega
    · refine (window_apply _ 1 _ r _ ⟨r.val + k.val / 384, by omega⟩ (by show r.val + k.val / 384 = r.val + 1; omega)).trans ?_
      exact shapeCast_1ab_ab_apply s _ _ _
  · refine (concatenate_apply_piece (1 : Fin 2) _ _ (ix2 r k) 2 (by show (2 : ℕ) < 3; decide) S2048x384 _ rfl rfl 768 rfl
      (ix2 r (⟨k.val % 384, Nat.mod_lt _ (by decide)⟩ : Fin 384)) ?_ ?_).trans ?_
    · intro b hb
      match b with
      | ⟨0, _⟩ => rfl
      | ⟨1, _⟩ => exact absurd rfl hb
    · show 768 + k.val % 384 = k.val; omega
    · refine (window_apply _ 2 _ r _ ⟨r.val + k.val / 384, by omega⟩ (by show r.val + k.val / 384 = r.val + 2; omega)).trans ?_
      exact shapeCast_1ab_ab_apply s _ _ _

/-- The weight block after its change of format: itself. -/
theorem weights_apply (w : Vec Ideal S32x1152 .f32) (i : S32x1152.Idx) : k0_pay3 (F := Ideal) w i = w i := by
  unfold k0_pay3
  rw [shapeCast_self]
  rfl

theorem lhs_0 (i : S32x2048.Idx) (q : dot_S32x1152_S2048x1152_S32x2048_1_1_0_0_n_n.contr.Idx) : (dot_S32x1152_S2048x1152_S32x2048_1_1_0_0_n_n.lhsIdx i q 0).val = (i 0).val := by
  unfold DotDims.lhsIdx
  rw [dif_neg (show ¬(0 : Fin S32x1152.rank) ∈ dot_S32x1152_S2048x1152_S32x2048_1_1_0_0_n_n.lhsBatch by decide),
    dif_pos (show (0 : Fin S32x1152.rank) ∈ dot_S32x1152_S2048x1152_S32x2048_1_1_0_0_n_n.lhsNonContracting by decide)]
  rfl
theorem lhs_1 (i : S32x2048.Idx) (q : dot_S32x1152_S2048x1152_S32x2048_1_1_0_0_n_n.contr.Idx) : (dot_S32x1152_S2048x1152_S32x2048_1_1_0_0_n_n.lhsIdx i q 1).val = (q ⟨0, by decide⟩).val :=
  dot_S32x1152_S2048x1152_S32x2048_1_1_0_0_n_n.lhsIdx_val_of_single rfl i q
theorem rhs_0 (i : S32x2048.Idx) (q : dot_S32x1152_S2048x1152_S32x2048_1_1_0_0_n_n.contr.Idx) : (dot_S32x1152_S2048x1152_S32x2048_1_1_0_0_n_n.rhsIdx i q 0).val = (i 1).val := by
  unfold DotDims.rhsIdx
  rw [dif_neg (show ¬(0 : Fin S2048x1152.rank) ∈ dot_S32x1152_S2048x1152_S32x2048_1_1_0_0_n_n.rhsBatch by decide),
    dif_pos (show (0 : Fin S2048x1152.rank) ∈ dot_S32x1152_S2048x1152_S32x2048_1_1_0_0_n_n.rhsNonContracting by decide)]
  rfl
theorem rhs_1 (i : S32x2048.Idx) (q : dot_S32x1152_S2048x1152_S32x2048_1_1_0_0_n_n.contr.Idx) : (dot_S32x1152_S2048x1152_S32x2048_1_1_0_0_n_n.rhsIdx i q 1).val = (q ⟨0, by decide⟩).val :=
  dot_S32x1152_S2048x1152_S32x2048_1_1_0_0_n_n.rhsIdx_val_of_single rfl i q

/-- The product into the zero accumulator: entry `(f, r)` is the sum over the 1152 lanes of the weights' row `f`
    against the windows' row `r`. -/
theorem product_apply (a : FVec Ideal S32x1152 .bf16) (x : FVec Ideal S2048x1152 .bf16) (f : Fin 32) (r : Fin 2048) :
    matmul (F := Ideal) dot_S32x1152_S2048x1152_S32x2048_1_1_0_0_n_n none a x (constant S32x2048 .f32 0x00000000#32) (ix2 f r)
      = ∑ k : Fin 1152, a (ix2 f k) * x (ix2 r k) := by
  simp only [matmul]
  rw [Ideal.matmul_constant_zero_apply, ← Equiv.sum_comp (ValueIdx.contrEquiv1 dot_S32x1152_S2048x1152_S32x2048_1_1_0_0_n_n 1152 rfl rfl).symm]
  refine Finset.sum_congr rfl fun k _ => ?_
  have hk := ValueIdx.contrEquiv1_symm_val dot_S32x1152_S2048x1152_S32x2048_1_1_0_0_n_n 1152 rfl rfl k
  have el : dot_S32x1152_S2048x1152_S32x2048_1_1_0_0_n_n.lhsIdx (ix2 f r) ((ValueIdx.contrEquiv1 dot_S32x1152_S2048x1152_S32x2048_1_1_0_0_n_n 1152 rfl rfl).symm k) = ix2 f k :=
    funext fun b => Fin.ext (by
      match b with
      | ⟨0, _⟩ => exact lhs_0 _ _
      | ⟨1, _⟩ => exact (lhs_1 _ _).trans hk)
  have er : dot_S32x1152_S2048x1152_S32x2048_1_1_0_0_n_n.rhsIdx (ix2 f r) ((ValueIdx.contrEquiv1 dot_S32x1152_S2048x1152_S32x2048_1_1_0_0_n_n 1152 rfl rfl).symm k) = ix2 r k :=
    funext fun b => Fin.ext (by
      match b with
      | ⟨0, _⟩ => exact rhs_0 _ _
      | ⟨1, _⟩ => exact (rhs_1 _ _).trans hk)
  rw [el, er]

/-- The bias column spread along the rows: entry `(f, r)` is the column's `(f, 0)`. -/
theorem column_apply {α : Type} (b : S32x1.Idx → α) (h : S32x1.Broadcasts S32x2048) (f : Fin 32) (r : Fin 2048) :
    broadcastTo S32x2048 b h (ix2 f r) = b (ix2 f (0 : Fin 1)) :=
  broadcastTo_apply b h _ _ fun a => match a with
    | ⟨0, _⟩ => by show f.val = if (32 : Nat) = 1 then 0 else f.val; rw [if_neg (by decide)]
    | ⟨1, _⟩ => by show 0 = if (1 : Nat) = 1 then 0 else r.val; rw [if_pos rfl]

/-- THE BODY AT AN ENTRY. -/
theorem stored_apply (s : Vec Ideal S1x2056x384 .f32) (w : Vec Ideal S32x1152 .f32) (b : Vec Ideal S32x1 .f32) (f : Fin 32) (r : Fin 2048) :
    k0_pay1 (F := Ideal) (k0_pay2 s) (k0_pay3 w) b (ix2 f r)
      = max ((∑ k : Fin 1152, w (ix2 f k) * s (ix3 (0 : Fin 1) (⟨r.val + k.val / 384, by have := r.isLt; have := k.isLt; omega⟩ : Fin 2056) (⟨k.val % 384, Nat.mod_lt _ (by decide)⟩ : Fin 384)))
          + b (ix2 f (0 : Fin 1))) (Ideal.ofBits .f32 0x00000000#32) := by
  unfold k0_pay1
  rw [maximumf_apply, addf_apply, product_apply, column_apply, shapeCast_self]
  refine congrArg₂ max (congrArg₂ (· + ·) (Finset.sum_congr rfl fun k _ => ?_) rfl) rfl
  rw [weights_apply, windows_apply]

end Cert.KernelIdeal.Payload

end
-- ==== Proof.Spec.lean ====
/-
  The function both programs compute: a one-dimensional convolution of a sequence of 200000 rows of 300 numbers
  with 32 filters, each spanning 3 consecutive rows, then a bias and a clamp at zero:

    conv x w b (f, t) = max (∑ j < 3, ∑ e < 300, w[f, 300 j + e] · x[t + j, e]  +  b[f]) 0     (f < 32, t < 199998).

  Arrays are read at natural-number coordinates, as zero outside their extents (`at2`, `at1`): a zero padding of an
  array is then the same function of the coordinates, and every index computation is arithmetic on naturals.
  Also here: a sum over `a * b` consecutive naturals as `a` tiles of `b`, and the two sums the programs form
  (the kernel's over 3 tiles of 384 lanes of which 84 are padding, the reference's over 3 tiles of 300) as the one above.
-/
import Idealize.ShloMosaic.PureOps.Ideal
import Idealize.ShloMosaic.Lib.ValueIdx
import Mathlib.Algebra.BigOperators.Intervals

noncomputable section

namespace Cert.Conv

open Idealize.ShloMosaic Idealize.ShloMosaic.ValueIdx Finset

/-- A rank-2 array read at natural coordinates: zero outside its extents. -/
def at2 {a b : ℕ} (x : (⟨2, ![a, b]⟩ : Shape).Idx → EReal) (r e : ℕ) : EReal :=
  if h : r < a ∧ e < b then x (ix2 ⟨r, h.1⟩ ⟨e, h.2⟩) else 0

/-- A vector read at a natural coordinate: zero outside its extent. -/
def at1 {a : ℕ} (x : (⟨1, ![a]⟩ : Shape).Idx → EReal) (r : ℕ) : EReal :=
  if h : r < a then x (ix1 ⟨r, h⟩) else 0

theorem at2_of_lt {a b : ℕ} (x : (⟨2, ![a, b]⟩ : Shape).Idx → EReal) {r e : ℕ} (hr : r < a) (he : e < b) :
    at2 x r e = x (ix2 ⟨r, hr⟩ ⟨e, he⟩) := dif_pos ⟨hr, he⟩

theorem at2_ix2 {a b : ℕ} (x : (⟨2, ![a, b]⟩ : Shape).Idx → EReal) (p : Fin a) (q : Fin b) :
    at2 x p.val q.val = x (ix2 p q) := dif_pos ⟨p.isLt, q.isLt⟩

theorem at2_of_col_ge {a b : ℕ} (x : (⟨2, ![a, b]⟩ : Shape).Idx → EReal) {r e : ℕ} (he : b ≤ e) :
    at2 x r e = 0 := dif_neg fun h => absurd h.2 (Nat.not_lt.2 he)

theorem at1_ix1 {a : ℕ} (x : (⟨1, ![a]⟩ : Shape).Idx → EReal) (p : Fin a) : at1 x p.val = x (ix1 p) := dif_pos p.isLt

/-- Entry `(f, t)` of the convolution, at natural coordinates. -/
def convN (x : (⟨2, ![200000, 300]⟩ : Shape).Idx → EReal) (w : (⟨2, ![32, 900]⟩ : Shape).Idx → EReal)
    (b : (⟨1, ![32]⟩ : Shape).Idx → EReal) (f t : ℕ) : EReal :=
  max ((∑ j ∈ range 3, ∑ e ∈ range 300, at2 w f (300 * j + e) * at2 x (t + j) e) + at1 b f)
    (Ideal.ofBits .f32 0x00000000#32)

/-- The convolution as an array `[32, 199998]`. -/
def conv (x : (⟨2, ![200000, 300]⟩ : Shape).Idx → EReal) (w : (⟨2, ![32, 900]⟩ : Shape).Idx → EReal)
    (b : (⟨1, ![32]⟩ : Shape).Idx → EReal) : (⟨2, ![32, 199998]⟩ : Shape).Idx → EReal :=
  fun i => convN x w b (i 0).val (i 1).val

/-- A sum over `a * b` consecutive naturals is `a` tiles of `b`. -/
theorem sum_range_tiles {M : Type*} [AddCommMonoid M] (a b : ℕ) (g : ℕ → M) :
    ∑ k ∈ range (a * b), g k = ∑ j ∈ range a, ∑ e ∈ range b, g (b * j + e) := by
  induction a with
  | zero => simp
  | succ n ih =>
    rw [Nat.succ_mul, sum_range_add, ih, sum_range_succ, Nat.mul_comm n b]

/-- The reference's sum: 900 products, the sequence's element on the left, position `k` in row `t + k / 300`, lane `k % 300`. -/
theorem sum_reference (x : (⟨2, ![200000, 300]⟩ : Shape).Idx → EReal) (w : (⟨2, ![32, 900]⟩ : Shape).Idx → EReal) (f t : ℕ) :
    ∑ k ∈ range 900, at2 x (t + k / 300) (k % 300) * at2 w f k
      = ∑ j ∈ range 3, ∑ e ∈ range 300, at2 w f (300 * j + e) * at2 x (t + j) e := by
  refine (sum_range_tiles 3 300 fun k => at2 x (t + k / 300) (k % 300) * at2 w f k).trans ?_
  refine sum_congr rfl fun j _ => sum_congr rfl fun e he => ?_
  have he' : e < 300 := mem_range.1 he
  rw [show (300 * j + e) / 300 = j by omega, show (300 * j + e) % 300 = e by omega, mul_comm]

/-- The kernel's sum: 1152 products, three tiles of 384 lanes; a lane from 300 on reads the sequence outside its
    extent, where it is zero. The weight there (`wp`) is then immaterial. -/
theorem sum_kernel (x : (⟨2, ![200000, 300]⟩ : Shape).Idx → EReal) (w : (⟨2, ![32, 900]⟩ : Shape).Idx → EReal)
    (wp : ℕ → EReal) (f t : ℕ) (hwp : ∀ j e, j < 3 → e < 300 → wp (384 * j + e) = at2 w f (300 * j + e)) :
    ∑ k ∈ range 1152, wp k * at2 x (t + k / 384) (k % 384)
      = ∑ j ∈ range 3, ∑ e ∈ range 300, at2 w f (300 * j + e) * at2 x (t + j) e := by
  refine (sum_range_tiles 3 384 fun k => wp k * at2 x (t + k / 384) (k % 384)).trans ?_
  refine sum_congr rfl fun j hj => ?_
  have hj' : j < 3 := mem_range.1 hj
  refine (sum_range_add (fun e => wp (384 * j + e) * at2 x (t + (384 * j + e) / 384) ((384 * j + e) % 384)) 300 84).trans ?_
  have hpad : ∑ e ∈ range 84, wp (384 * j + (300 + e)) * at2 x (t + (384 * j + (300 + e)) / 384) ((384 * j + (300 + e)) % 384) = 0 :=
    sum_eq_zero fun e he => by
      have he' : e < 84 := mem_range.1 he
      rw [at2_of_col_ge x (by omega : 300 ≤ (384 * j + (300 + e)) % 384), mul_zero]
  rw [hpad, add_zero]
  refine sum_congr rfl fun e he => ?_
  have he' : e < 300 := mem_range.1 he
  rw [show (384 * j + e) / 384 = j by omega, show (384 * j + e) % 384 = e by omega, hwp j e hj' he']

end Cert.Conv

end
-- ==== Proof.HostPrefix.lean ====
/-
  What the region finds in the three arrays its windows and its own transfers read, as functions of the program's
  arguments: before the region the host pads the sequence [200000, 300] with zeros to [200712, 384] (lanes first, then
  rows); views the weights [32, 900] as [32, 3, 300], pads the lanes with zeros to 384 and views the result as
  [32, 1152]; and views the bias [32] as a column [32, 1]. Read at an entry, at the ideal instance:

    padded sequence (r, e)      = x[r, e], zero outside the sequence's extents            (`seqPadded_apply`)
    padded weights (f, 384 j + e) = w[f, 300 j + e]   for j < 3, e < 300                  (`wPadded_apply`)
    bias column (f, 0)          = b[f]                                                  (`bCol_apply`).
-/
import proofs.«104466_j42159398977944_2_alg».proof.Proof.Gen.KernelIdeal.Frame
import proofs.«104466_j42159398977944_2_alg».proof.Proof.Spec
import Idealize.ShloMosaic.Lib.Pipeline.Value
import Idealize.ShloMosaic.Lib.KernelVsHost
import Idealize.ShloMosaic.Lib.StableHlo.Run
import Idealize.ShloMosaic.Lib.ValueIdx
import Idealize.ShloMosaic.Lib.Tactic

noncomputable section

namespace Cert.KernelIdeal.Prefix

open Cert.KernelIdeal Cert.KernelIdeal.Gen
open Idealize.ShloMosaic Idealize.ShloMosaic.TcCoe Idealize.SL.Sem Idealize.ShloMosaic.ValueIdx
open Cert.Conv

variable {F : FTy → Type} [FloatOps F]

/-- The padding value: the integer zero, converted. -/
def padValue : S_.Idx → Elt F .f32 := sitofp .f32 (constantI S_ 32 0#32)

/-- The sequence padded to 384 lanes, then to 200712 rows. -/
def seqPadded (x : S200000x300.Idx → Elt F .f32) : S200712x384.Idx → Elt F .f32 :=
  pad S200712x384 ![0, 0] ![712, 0] ![0, 0]
    (pad S200000x384 ![0, 0] ![0, 84] ![0, 0] x (padValue (F := F)) Facts₀.pads_S200000x300_S200000x384_000_0840 Facts₀.h_S_)
    (padValue (F := F)) Facts₀.pads_S200000x384_S200712x384_07120_000 Facts₀.h_S_

/-- The weights, each of the three taps' 300 lanes padded to 384. -/
def wPadded (w : S32x900.Idx → Elt F .f32) : S32x1152.Idx → Elt F .f32 :=
  shapeCast S32x1152
    (pad S32x3x384 ![0, 0, 0] ![0, 0, 84] ![0, 0, 0] (shapeCast S32x3x300 w Facts₀.shapeCasts_S32x900_S32x3x300) (padValue (F := F))
      Facts₀.pads_S32x3x300_S32x3x384_000_000_0840 Facts₀.h_S_)
    Facts₀.shapeCasts_S32x3x384_S32x1152

/-- The bias as a column. -/
def bCol (b : S32.Idx → Elt F .f32) : S32x1.Idx → Elt F .f32 := shapeCast S32x1 b Facts₀.shapeCasts_S32_S32x1

section Found
variable (m : (ℓ : Loc nD τ sig) → Buf (Elt F) ℓ) (c : Dev nD)

/-- The region finds the padded sequence in the array its own transfers read, -/
theorem V_seq : (V m c main_v4 : S200712x384.Idx → Elt F .f32) = seqPadded (m ((c : Thread nD τ).loc main_arg0)) := by
  dsimp only [V, V0]
  simp only [hostOps0, hostOps0_1, hostOps0_2, hostOps0_3, hostOps0_4, hostOps0_5, hostOps0_6, List.flatten_cons, List.flatten_nil,
    List.append_nil, List.cons_append, List.nil_append]
  after_results
  rfl

/-- the padded weights in the first window's array, -/
theorem V_w : (V m c main_v3 : S32x1152.Idx → Elt F .f32) = wPadded (m ((c : Thread nD τ).loc main_arg1)) := by
  dsimp only [V, V0]
  simp only [hostOps0, hostOps0_1, hostOps0_2, hostOps0_3, hostOps0_4, hostOps0_5, hostOps0_6, List.flatten_cons, List.flatten_nil,
    List.append_nil, List.cons_append, List.nil_append]
  after_results
  rfl

/-- and the bias column in the second window's. -/
theorem V_b : (V m c main_v5 : S32x1.Idx → Elt F .f32) = bCol (m ((c : Thread nD τ).loc main_arg2)) := by
  dsimp only [V, V0]
  simp only [hostOps0, hostOps0_1, hostOps0_2, hostOps0_3, hostOps0_4, hostOps0_5, hostOps0_6, List.flatten_cons, List.flatten_nil,
    List.append_nil, List.cons_append, List.nil_append]
  after_results
  rfl
end Found

/-! ## Read at an entry, at the ideal instance -/

/-- The padding value is zero. -/
theorem padValue_eq (i : S_.Idx) : padValue (F := Ideal) i = 0 := by
  show (((0#32 : BitVec 32).toInt : ℝ) : EReal) = 0
  simp

/-- The padded sequence at `(r, e)`: the sequence there, zero outside its extents. -/
theorem seqPadded_apply (x : S200000x300.Idx → Elt Ideal .f32) (r : Fin 200712) (e : Fin 384) :
    seqPadded (F := Ideal) x (ix2 r e) = at2 x r.val e.val := by
  unfold seqPadded
  by_cases hr : r.val < 200000
  · rw [pad_apply_of_inside _ _ _ _ _ _ _ (ix2 r e) (ix2 (⟨r.val, hr⟩ : Fin 200000) e) (fun a => match a with
      | ⟨0, _⟩ => by show r.val = 0 + r.val * (0 + 1); omega
      | ⟨1, _⟩ => by show e.val = 0 + e.val * (0 + 1); omega)]
    by_cases he : e.val < 300
    · rw [pad_apply_of_inside _ _ _ _ _ _ _ (ix2 (⟨r.val, hr⟩ : Fin 200000) e) (ix2 (⟨r.val, hr⟩ : Fin 200000) (⟨e.val, he⟩ : Fin 300)) (fun a => match a with
        | ⟨0, _⟩ => by show r.val = 0 + r.val * (0 + 1); omega
        | ⟨1, _⟩ => by show e.val = 0 + e.val * (0 + 1); omega)]
      exact (at2_of_lt x hr he).symm
    · refine (pad_apply_of_not_inside _ _ _ _ _ _ _ (ix2 (⟨r.val, hr⟩ : Fin 200000) e) (1 : Fin 2) ?_).trans ?_
      · intro h
        have h3 : (e.val - 0) / (0 + 1) < 300 := h.2.2
        omega
      · rw [padValue_eq, at2_of_col_ge x (Nat.not_lt.1 he)]
  · refine (pad_apply_of_not_inside _ _ _ _ _ _ _ (ix2 r e) (0 : Fin 2) ?_).trans ?_
    · intro h
      have h3 : (r.val - 0) / (0 + 1) < 200000 := h.2.2
      omega
    · rw [padValue_eq]
      unfold at2
      rw [dif_neg (fun h : r.val < 200000 ∧ e.val < 300 => hr h.1)]

/-- The padded weights at `(f, 384 j + e)`, for a lane `e` of tap `j`: the weights at `(f, 300 j + e)`. -/
theorem wPadded_apply (w : S32x900.Idx → Elt Ideal .f32) (f : Fin 32) (j e : ℕ) (hj : j < 3) (he : e < 300) :
    at2 (wPadded (F := Ideal) w) f.val (384 * j + e) = at2 w f.val (300 * j + e) := by
  have hf := f.isLt
  rw [at2_of_lt _ hf (by omega : 384 * j + e < 1152), at2_of_lt _ hf (by omega : 300 * j + e < 900)]
  unfold wPadded
  rw [shapeCast_apply _ Facts₀.shapeCasts_S32x3x384_S32x1152 _ (ix3 f (⟨j, hj⟩ : Fin 3) (⟨e, by omega⟩ : Fin 384)) (by
      rw [Shape.rowMajor_val_three, Shape.rowMajor_val_two]
      show (f.val * 3 + j) * 384 + e = f.val * 1152 + (384 * j + e)
      omega),
    pad_apply_of_inside _ _ _ _ _ _ _ _ (ix3 f (⟨j, hj⟩ : Fin 3) (⟨e, he⟩ : Fin 300)) (fun a => match a with
      | ⟨0, _⟩ => by show f.val = 0 + f.val * (0 + 1); omega
      | ⟨1, _⟩ => by show j = 0 + j * (0 + 1); omega
      | ⟨2, _⟩ => by show e = 0 + e * (0 + 1); omega)]
  exact shapeCast_apply _ Facts₀.shapeCasts_S32x900_S32x3x300 _ _ (by
    rw [Shape.rowMajor_val_two, Shape.rowMajor_val_three]
    show f.val * 900 + (300 * j + e) = (f.val * 3 + j) * 300 + e
    omega)

/-- The bias column at `(f, 0)`: the bias of filter `f`. -/
theorem bCol_apply (b : S32.Idx → Elt Ideal .f32) (f : Fin 32) : bCol (F := Ideal) b (ix2 f (0 : Fin 1)) = at1 b f.val := by
  unfold bCol
  rw [at1_ix1]
  exact shapeCast_apply _ Facts₀.shapeCasts_S32_S32x1 _ _ (by
    rw [Shape.rowMajor_val_one, Shape.rowMajor_val_two]
    show f.val = f.val * 1 + 0
    omega)

end Cert.KernelIdeal.Prefix

end
-- ==== Proof.KernelArray.lean ====
/-
  The idealized kernel's result is the convolution.

  At grid point `t` the body's arithmetic runs on the padded weights, the bias column and the slab of rows
  `2048 t … 2048 t + 2055` of the padded sequence, so the block it stores holds, at `(f, r)`, the convolution at column
  `2048 t + r` (`point_value`: the 1152 products are three tiles of 384 lanes, of which the last 84 read the sequence
  outside its extents, where it is zero — Spec's `sum_kernel`). The 98 stored blocks are the blocks of ONE array
  [32, 200704], the convolution at every column with the sequence read as zero past its end (`convWide`); they cover
  it, so the region's result array ends holding it (`final`). The host then keeps columns `0 … 199997`: the
  convolution (`tail_eq`), and the run is read with that result named (`run`).
-/
import proofs.«104466_j42159398977944_2_alg».proof.Proof.KernelBlock
import proofs.«104466_j42159398977944_2_alg».proof.Proof.KernelPayload
import proofs.«104466_j42159398977944_2_alg».proof.Proof.HostPrefix
import proofs.«104466_j42159398977944_2_alg».proof.Proof.Spec
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.Result

open Cert.KernelIdeal Cert.KernelIdeal.Gen
open Idealize.ShloMosaic Idealize.ShloMosaic.TcCoe Idealize.SL.Sem Idealize.ShloMosaic.ValueIdx
open Idealize.ShloMosaic.Pipeline (Dat)
open Cert.Conv

/-! ## One point's block -/

/-- The body's arithmetic at `(f, r)`, on a slab holding rows `T …` of the sequence (zero outside it), the padded
    weights and the bias column: the convolution at column `T + r`. -/
theorem point_value (s : Vec Ideal S1x2056x384 .f32) (wb : Vec Ideal S32x1152 .f32) (bc : Vec Ideal S32x1 .f32)
    (x : S200000x300.Idx → EReal) (w : S32x900.Idx → EReal) (b : S32.Idx → EReal) (T : ℕ) (f : Fin 32) (r : Fin 2048)
    (hs : ∀ (q : Fin 2056) (e : Fin 384), s (ix3 (0 : Fin 1) q e) = at2 x (T + q.val) e.val)
    (hw : ∀ k : Fin 1152, wb (ix2 f k) = at2 (Prefix.wPadded (F := Ideal) w) f.val k.val)
    (hb : bc (ix2 f (0 : Fin 1)) = at1 b f.val) :
    k0_pay1 (F := Ideal) (k0_pay2 s) (k0_pay3 wb) bc (ix2 f r) = convN x w b f.val (T + r.val) := by
  rw [Payload.stored_apply, hb]
  unfold convN
  refine congrArg₂ max (congrArg₂ (· + ·) ?_ rfl) rfl
  rw [← sum_kernel x w (fun k => at2 (Prefix.wPadded (F := Ideal) w) f.val k) f.val (T + r.val)
      (fun j e hj he => Prefix.wPadded_apply w f j e hj he),
    ← Fin.sum_univ_eq_sum_range (fun k => at2 (Prefix.wPadded (F := Ideal) w) f.val k * at2 x (T + r.val + k / 384) (k % 384)) 1152]
  refine Finset.sum_congr rfl fun k _ => ?_
  rw [hw k, hs]
  show _ * at2 x (T + (r.val + k.val / 384)) (k.val % 384) = _ * at2 x (T + r.val + k.val / 384) (k.val % 384)
  rw [Nat.add_assoc]

/-! ## The array the blocks are blocks of -/

/-- The convolution at every column of the padded result [32, 200704]; from column 199998 on the windows run past the
    sequence's end, where it reads as zero. -/
def convWide (x : S200000x300.Idx → EReal) (w : S32x900.Idx → EReal) (b : S32.Idx → EReal) : S32x200704.Idx → EReal :=
  fun i => convN x w b (i 0).val (i 1).val

variable (m : (ℓ : Loc nD τ sig) → Buf (Elt Ideal) ℓ) (ρ : Dev nD → PrngReg)

/-- The three arguments, as launched. -/
abbrev argX (c : Dev nD) : S200000x300.Idx → EReal := m ((c : Thread nD τ).loc main_arg0)
abbrev argW (c : Dev nD) : S32x900.Idx → EReal := m ((c : Thread nD τ).loc main_arg1)
abbrev argB (c : Dev nD) : S32.Idx → EReal := m ((c : Thread nD τ).loc main_arg2)

/-- The region's result array as the blocks leave it. -/
abbrev wide (c : Dev nD) : Buf (Elt Ideal) ((c : Thread nD τ).loc main_v6) := convWide (argX m c) (argW m c) (argB m c)

/-- Where the windows place their blocks, decided over the grid: the weights' and the bias's window always at the
    origin, the result's window at column block `t`. -/
theorem idx_in : ∀ t : Fin cfg0.N, win0_0.index t 0 = 0 ∧ win0_0.index t 1 = 0 ∧ win0_1.index t 0 = 0 ∧ win0_1.index t 1 = 0 :=
  (by decide +kernel : ∀ t : Fin grid0.N, win0_0.index t 0 = 0 ∧ win0_0.index t 1 = 0 ∧ win0_1.index t 0 = 0 ∧ win0_1.index t 1 = 0)
theorem idx_out : ∀ t : Fin cfg0.N, win0_2.index t 0 = 0 ∧ win0_2.index t 1 = t.val
    ∧ win0_2.xsize (grid0.coords t) 0 = 32 ∧ win0_2.xsize (grid0.coords t) 1 = 2048 :=
  (by decide +kernel : ∀ t : Fin grid0.N, win0_2.index t 0 = 0 ∧ win0_2.index t 1 = t.val
    ∧ win0_2.xsize (grid0.coords t) 0 = 32 ∧ win0_2.xsize (grid0.coords t) 1 = 2048)

/-- The weights' window holds the whole padded weights at every point, -/
theorem iblk_w (c : Dev nD) (t : Fin cfg0.N) (y : S32x1152.Idx) :
    (iblk m c 0 t : Vec Ideal S32x1152 .f32) y = Prefix.wPadded (F := Ideal) (argW m c) y := by
  rw [← Prefix.V_w m c]
  show V m c main_v3 (((cfg0.win 0).blk t).view.emb y) = V m c main_v3 y
  refine congrArg _ (funext fun a => Fin.ext ?_)
  have h := idx_in t
  match a with
  | ⟨0, _⟩ => show win0_0.index t 0 * 32 + 1 * (y 0).val = (y 0).val; rw [h.1]; omega
  | ⟨1, _⟩ => show win0_0.index t 1 * 1152 + 1 * (y 1).val = (y 1).val; rw [h.2.1]; omega

/-- the bias's window the whole bias column. -/
theorem iblk_b (c : Dev nD) (t : Fin cfg0.N) (y : S32x1.Idx) :
    (iblk m c 1 t : Vec Ideal S32x1 .f32) y = Prefix.bCol (F := Ideal) (argB m c) y := by
  rw [← Prefix.V_b m c]
  show V m c main_v5 (((cfg0.win 1).blk t).view.emb y) = V m c main_v5 y
  refine congrArg _ (funext fun a => Fin.ext ?_)
  have h := idx_in t
  match a with
  | ⟨0, _⟩ => show win0_1.index t 0 * 32 + 1 * (y 0).val = (y 0).val; rw [h.2.2.1]; omega
  | ⟨1, _⟩ => show win0_1.index t 1 * 1 + 1 * (y 1).val = (y 1).val; rw [h.2.2.2]; omega

/-- The slab at point `t` holds rows `2048 t …` of the padded sequence: the sequence, zero outside its extents. -/
theorem slab_apply (c : Dev nD) (t : Fin cfg0.N) (q : Fin 2056) (e : Fin 384) :
    Block.slab (F := Ideal) c t (V m c main_v4) (ix3 (0 : Fin 1) q e) = at2 (argX m c) (2048 * t.val + q.val) e.val := by
  have hN : t.val < 98 := lt_of_lt_of_eq t.isLt (show cfg0.N = 98 from N_0)
  have hb : (Ring.bk 98 t.val).val = t.val := Ring.bk_val hN
  have hq := q.isLt
  rw [← Prefix.seqPadded_apply (argX m c) (⟨2048 * t.val + q.val, by omega⟩ : Fin 200712) e, ← Prefix.V_seq m c]
  show V m c main_v4 ((srcB0_0 (Ring.bk 98 t.val)).view.emb _) = V m c main_v4 _
  refine congrArg _ (funext fun a => Fin.ext ?_)
  match a with
  | ⟨0, _⟩ => show 2048 * (Ring.bk 98 t.val).val + 1 * q.val = 2048 * t.val + q.val; rw [hb]; omega
  | ⟨1, _⟩ => show 0 + 1 * e.val = e.val; omega

/-- What point `t` writes back is block `t` of `wide`. -/
theorem flushed_eq (c : Dev nD) (t : Fin cfg0.N) :
    (dats m 0 c).flushed 2 t = ((cfg0.win 2).blk t).view.read (Elt Ideal) (wide m c) := by
  show (cfg0.win 2).cut (grid0.coords t) ((dats m 0 c).after 2 t) = _
  rw [after0_2, Block.outsAt_eq]
  funext y
  obtain ⟨f, r, rfl⟩ : ∃ (f : Fin 32) (r : Fin 2048), y = ix2 f r := ⟨y 0, y 1, eq_ix2 y⟩
  have h := idx_out t
  refine (point_value _ _ _ (argX m c) (argW m c) (argB m c) (2048 * t.val) f r
    (fun q e => slab_apply m c t q e)
    (fun k => (iblk_w m c t (ix2 f k)).trans (at2_ix2 _ f k).symm)
    ((iblk_b m c t (ix2 f (0 : Fin 1))).trans (Prefix.bCol_apply _ f))).trans ?_
  show convN _ _ _ f.val (2048 * t.val + r.val) = convN _ _ _ (win0_2.index t 0 * 32 + 1 * f.val) (win0_2.index t 1 * 2048 + 1 * r.val)
  rw [h.1, h.2.1]
  congr 1 <;> omega

/-- Block `t` of the result array is its columns `2048 t … 2048 t + 2047`. -/
theorem mem_blk (t : Fin cfg0.N) (i : S32x200704.Idx) :
    i ∈ ((cfg0.win 2).blk t).view.set ↔ 2048 * t.val ≤ (i 1 : Nat) ∧ (i 1 : Nat) < 2048 * t.val + 2048 := by
  show i ∈ ((View.whole main_v6).slice (win0_2.rect t)).set ↔ _
  rw [View.set_slice_whole, Rect.mem_set_unit]
  have h0 : (i 0 : Nat) < 32 := (i 0).isLt
  have h := idx_out t
  refine ⟨fun hm => ?_, fun hm a => ?_⟩
  · have h1 : win0_2.index t 1 * 2048 ≤ (i 1 : Nat) ∧ (i 1 : Nat) < win0_2.index t 1 * 2048 + win0_2.xsize (grid0.coords t) 1 := hm 1
    rw [h.2.1, h.2.2.2] at h1
    omega
  · match a with
    | ⟨0, _⟩ =>
      show win0_2.index t 0 * 32 ≤ (i 0 : Nat) ∧ (i 0 : Nat) < win0_2.index t 0 * 32 + win0_2.xsize (grid0.coords t) 0
      rw [h.1, h.2.2.1]; omega
    | ⟨1, _⟩ =>
      show win0_2.index t 1 * 2048 ≤ (i 1 : Nat) ∧ (i 1 : Nat) < win0_2.index t 1 * 2048 + win0_2.xsize (grid0.coords t) 1
      rw [h.2.1, h.2.2.2]; omega

/-- Every column is in the block of the point `column / 2048`. -/
theorem cover (i : S32x200704.Idx) :
    ∃ t : Fin cfg0.N, (cfg0.win 2).flush t = true ∧ i ∈ ((cfg0.win 2).blk t).view.set := by
  have h1 : (i 1 : Nat) < 200704 := (i 1).isLt
  have hN : cfg0.N = 98 := N_0
  refine ⟨⟨(i 1 : Nat) / 2048, by omega⟩, flush0_2 _, ?_⟩
  rw [mem_blk]
  show 2048 * ((i 1 : Nat) / 2048) ≤ (i 1 : Nat) ∧ (i 1 : Nat) < 2048 * ((i 1 : Nat) / 2048) + 2048
  omega

/-- So the region's result array ends holding `wide`. -/
theorem final (c : Dev nD) : (dats m 0 c).arrAt 2 cfg0.N = wide m c :=
  (dats m 0 c).arrAt_eq_of_cover 2 (wide m c) (fun t _ => flushed_eq m c t) cover

/-! ## The host's last operation, and the run -/

/-- The columns the host keeps are the convolution. -/
theorem tail_eq (c : Dev nD) :
    (Pipeline.afterTail₀ cfgs (dats m) 0 (V0 m) [hostOps1] c main_v7 : S32x199998.Idx → EReal)
      = conv (argX m c) (argW m c) (argB m c) := by
  unfold Pipeline.afterTail₀
  show StableHlo.after hostOps1 _ (Proc.devRef .tc main_v7) = _
  after_results
  rw [(Pipeline.withArrays_arr spec0 launch0.win.arr_inj c _ _ 2).trans (final m c)]
  funext i
  obtain ⟨f, t, rfl⟩ : ∃ (f : Fin 32) (t : Fin 199998), i = ix2 f t := ⟨i 0, i 1, eq_ix2 i⟩
  have ht := t.isLt
  exact extractStridedSlice_apply _ _ _ _ (ix2 f (⟨t.val, by omega⟩ : Fin 200704)) fun a => match a with
    | ⟨0, _⟩ => by show f.val = 0 + f.val; omega
    | ⟨1, _⟩ => by show t.val = 0 + t.val; omega

/-- The idealized kernel's run, read: it ends with the convolution of its arguments in its result, the arguments
    unchanged. -/
theorem run : θ_run defs (onTc (τ := τ) (main (F := Ideal))) ⟨m, fun _ => 0, ρ⟩ (fun r => ∀ c : Dev nD,
      r.2.mem ((c.tc : Thread nD τ).loc main_v7) = conv (argX m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v7 (Pipeline.mem_restRefs_of main_v7 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.Result

end
-- ==== Proof.RefRead.lean ====
/-
  The reference program read index by index: its result is the convolution.

  The program forms, for every output position `t < 199998` and tap `j < 3`, the row number `t + j` as a 32-bit
  word (a sum of two counters), adds 200000 where that word is negative (it never is: `t + j ≤ 199999 < 2^31`), and
  gathers row `clamp (t + j)` of the sequence, the clamp into `[0, 199999]` changing nothing. The three gathered rows
  of 300 lanes are laid side by side as one row of 900, position `k` holding row `t + k / 300`, lane `k % 300`; that
  row is contracted with filter `f`'s 900 weights, the bias of `f` is added, the maximum with the zero word is taken,
  and the array is transposed to `[32, 199998]`. Entry `(f, t)` is therefore

    max (∑ k < 900, x[t + k / 300, k % 300] · w[f, k]  +  b[f]) 0,

  and a sum over 900 consecutive naturals taken as 3 tiles of 300 is the convolution's double sum.

  In order: naturals below 2^31 as signed words; the start index is the word of `t + j`; the gather at an index;
  the two operands of the contraction and the bias at an index; the result.
-/
import proofs.«104466_j42159398977944_2_alg».proof.Proof.Gen.ReferenceIdeal.Read
import proofs.«104466_j42159398977944_2_alg».proof.Proof.Spec
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-! ## Words: naturals below 2^31 as signed 32-bit words -/

/-- A natural below 2^31, as a 32-bit word read signed, is itself. -/
theorem toInt_ofNat_small (n : ℕ) (hn : n < 2147483648) : (BitVec.ofNat 32 n).toInt = (n : ℤ) := by
  rw [BitVec.toInt_eq_toNat_cond, BitVec.toNat_ofNat]
  have : n % 2 ^ 32 = n := Nat.mod_eq_of_lt (by omega)
  rw [this, if_pos (by omega)]

/-- Such a word is not negative: the signed comparison with zero gives the bit 0. -/
theorem slt_zero_small (n : ℕ) (hn : n < 2147483648) : IntOp.cmpi .slt (BitVec.ofNat 32 n) 0#32 = 0#1 := by
  unfold IntOp.cmpi
  show BitVec.ofBool ((BitVec.ofNat 32 n).slt 0#32) = 0#1
  have h : (BitVec.ofNat 32 n).slt 0#32 = false := by
    rw [BitVec.slt, toInt_ofNat_small n hn]
    simp
  rw [h]; rfl

/-- The sum of two words of naturals is the word of the sum. -/
theorem addi_ofNat (a b : ℕ) : IntOp.addi (BitVec.ofNat 32 a) (BitVec.ofNat 32 b) = BitVec.ofNat 32 (a + b) := by
  unfold IntOp.addi
  exact (BitVec.ofNat_add a b).symm

/-- Read signed and taken as a natural, such a word is the natural it was made of. -/
theorem toNat_toInt_ofNat_small (n : ℕ) (hn : n < 2147483648) : (BitVec.ofNat 32 n).toInt.toNat = n := by
  rw [toInt_ofNat_small n hn]; rfl

/-! ## The start index: row `t + j` -/

/-- The sum of the two counters at `(t, j)` is the word of `t + j`. -/
theorem v6_at (t : Fin 199998) (j : Fin 3) :
    val_main_v6 (F := Ideal) (ix2 t j) = BitVec.ofNat 32 (t.val + j.val) := by
  rw [val_main_v6_apply, val_main_v4_apply, val_main_v1_apply, val_main_v0_apply, val_main_v5_apply, val_main_v3_apply,
    val_main_v2_apply]
  exact addi_ofNat _ _

/-- `t + j` is not negative, so the select keeps it. -/
theorem v11_at (t : Fin 199998) (j : Fin 3) :
    val_main_v11 (F := Ideal) (ix2 t j) = BitVec.ofNat 32 (t.val + j.val) := by
  have ht := t.isLt
  have hj := j.isLt
  rw [val_main_v11_apply, val_main_v8_apply, val_main_v7_apply, val_main_c_apply, v6_at,
    slt_zero_small _ (by omega), select_zero]

/-- The start index of result row `(t, j)` is the word of `t + j`. -/
theorem v12_at (t : Fin 199998) (j : Fin 3) (z : Fin 1) :
    val_main_v12 (F := Ideal) (ix3 t j z) = BitVec.ofNat 32 (t.val + j.val) := by
  rw [val_main_v12_apply]
  have e : idx_main_v12 (ix3 t j z) = ix2 t j :=
    funext fun a => Fin.ext (by match a with | ⟨0, _⟩ => rfl | ⟨1, _⟩ => rfl)
  rw [e, v11_at]

/-! ## The gather read at an index -/

/-- Result element `(t, j, e)` of the gather is the operand at row: the start index `idx[t, j, 0]` read signed
    and clamped into `[0, 199999]`, lane `e`. Operand axis 0 is collapsed and takes the start index; operand axis 1
    is the offset axis, read from result axis 2. -/
theorem gather_at (x0 : (⟨S200000x300, .f32⟩ : BufTy).Contents (Elt Ideal)) (t : Fin 199998) (j : Fin 3) (e : Fin 300) :
    val_main_v13 (F := Ideal) x0 (ix3 t j e)
      = x0 (ix2 ⟨min (val_main_v12 (F := Ideal) (ix3 t j (0 : Fin 1))).toInt.toNat 199999, by omega⟩ e) := by
  unfold val_main_v13 Host.gather
  congr 1
  funext a
  refine Fin.ext ?_
  match a with
  | ⟨0, _⟩ =>
    show gather_S200000x300_S199998x3x1_S199998x3x300_2_0_n_n_0_2_1300.start (ix3 t j e) (val_main_v12 (F := Ideal)) 0
        + gather_S200000x300_S199998x3x1_S199998x3x300_2_0_n_n_0_2_1300.batchCoord (ix3 t j e) 0
        + gather_S200000x300_S199998x3x1_S199998x3x300_2_0_n_n_0_2_1300.offCoord (ix3 t j e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S200000x300_S199998x3x1_S199998x3x300_2_0_n_n_0_2_1300.startIndexMap from
      List.mem_singleton.mpr rfl)]
    have hsi : gather_S200000x300_S199998x3x1_S199998x3x300_2_0_n_n_0_2_1300.siIdx (ix3 t j e)
        ⟨List.idxOf (0 : Fin 2) gather_S200000x300_S199998x3x1_S199998x3x300_2_0_n_n_0_2_1300.startIndexMap,
          List.idxOf_lt_length_iff.2 (List.mem_singleton.mpr rfl)⟩ = ix3 t j (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S200000x300_S199998x3x1_S199998x3x300_2_0_n_n_0_2_1300.start (ix3 t j e) (val_main_v12 (F := Ideal)) 1
        + gather_S200000x300_S199998x3x1_S199998x3x300_2_0_n_n_0_2_1300.batchCoord (ix3 t j e) 1
        + gather_S200000x300_S199998x3x1_S199998x3x300_2_0_n_n_0_2_1300.offCoord (ix3 t j e) 1 = e.val
    rw [GatherDims.batchCoord_eq_zero _ _ _ List.not_mem_nil]
    unfold GatherDims.start
    rw [dif_neg (show ¬ (1 : Fin 2) ∈ gather_S200000x300_S199998x3x1_S199998x3x300_2_0_n_n_0_2_1300.startIndexMap by decide)]
    unfold GatherDims.offCoord
    rw [dif_pos (show (1 : Fin 2) ∈ gather_S200000x300_S199998x3x1_S199998x3x300_2_0_n_n_0_2_1300.sKept by decide)]
    simp only [Nat.zero_add, Nat.add_zero]
    rfl

/-! ## The two operands of the contraction at an index -/

/-- Position `k` of row `t` of the reshaped gather is the sequence at row `t + k / 300`, lane `k % 300`. -/
theorem lhs_at (x0 : (⟨S200000x300, .f32⟩ : BufTy).Contents (Elt Ideal)) (t : Fin 199998) (k : Fin 900) :
    val_main_v14 (F := Ideal) x0 (ix2 t k) = Cert.Conv.at2 x0 (t.val + k.val / 300) (k.val % 300) := by
  have ht := t.isLt
  have hk := k.isLt
  have e14 : idx_main_v14 (ix2 t k)
      = ix3 t (⟨k.val / 300, by omega⟩ : Fin 3) (⟨k.val % 300, by omega⟩ : Fin 300) :=
    funext fun a => Fin.ext (by
      match a with
      | ⟨0, _⟩ => show (t.val * 900 + k.val) / 900 = t.val; omega
      | ⟨1, _⟩ => show (t.val * 900 + k.val) / 300 % 3 = k.val / 300; omega
      | ⟨2, _⟩ => show (t.val * 900 + k.val) % 300 = k.val % 300; omega)
  rw [val_main_v14_apply, e14, gather_at,
    Cert.Conv.at2_of_lt x0 (by omega : t.val + k.val / 300 < 200000) (by omega : k.val % 300 < 300)]
  refine congrArg x0 (congrArg (fun r => ix2 r _) (Fin.ext ?_))
  show min (val_main_v12 (F := Ideal) (ix3 t (⟨k.val / 300, by omega⟩ : Fin 3) (0 : Fin 1))).toInt.toNat 199999
    = t.val + k.val / 300
  rw [v12_at, toNat_toInt_ofNat_small _ (by show t.val + k.val / 300 < 2147483648; omega)]
  show min (t.val + k.val / 300) 199999 = t.val + k.val / 300
  omega

/-- Entry `(k, f)` of the transposed filters is filter `f` at position `k`. -/
theorem rhs_at (x1 : (⟨S32x900, .f32⟩ : BufTy).Contents (Elt Ideal)) (k : Fin 900) (f : Fin 32) :
    val_main_v15 (F := Ideal) x1 (ix2 k f) = Cert.Conv.at2 x1 f.val k.val := by
  have e15 : idx_main_v15 (ix2 k f) = ix2 f k :=
    funext fun a => Fin.ext (by match a with | ⟨0, _⟩ => rfl | ⟨1, _⟩ => rfl)
  rw [val_main_v15_apply, e15]
  exact (Cert.Conv.at2_ix2 x1 f k).symm

/-- Entry `(t, f)` of the contraction: the 900 products, summed over the naturals below 900. -/
theorem dot_at (x0 : (⟨S200000x300, .f32⟩ : BufTy).Contents (Elt Ideal)) (x1 : (⟨S32x900, .f32⟩ : BufTy).Contents (Elt Ideal))
    (t : Fin 199998) (f : Fin 32) :
    val_main_v16 (F := Ideal) x0 x1 (ix2 t f)
      = ∑ k ∈ Finset.range 900, Cert.Conv.at2 x0 (t.val + k / 300) (k % 300) * Cert.Conv.at2 x1 f.val k := by
  rw [val_main_v16_apply,
    ← Fin.sum_univ_eq_sum_range (fun k => Cert.Conv.at2 x0 (t.val + k / 300) (k % 300) * Cert.Conv.at2 x1 f.val k) 900]
  refine Finset.sum_congr rfl fun k _ => ?_
  have el : lidx_main_v16 (ix2 t f) k = ix2 t k :=
    funext fun a => Fin.ext (by match a with | ⟨0, _⟩ => rfl | ⟨1, _⟩ => rfl)
  have er : ridx_main_v16 (ix2 t f) k = ix2 k f :=
    funext fun a => Fin.ext (by match a with | ⟨0, _⟩ => rfl | ⟨1, _⟩ => rfl)
  rw [el, er, lhs_at, rhs_at]

/-- Entry `(t, f)` of the broadcast bias is the bias of filter `f`. -/
theorem bias_at (x2 : (⟨S32, .f32⟩ : BufTy).Contents (Elt Ideal)) (t : Fin 199998) (f : Fin 32) :
    val_main_v18 (F := Ideal) x2 (ix2 t f) = Cert.Conv.at1 x2 f.val := by
  have e : idx_main_v17 (idx_main_v18 (ix2 t f)) = ix1 f :=
    funext fun a => Fin.ext (by match a with | ⟨0, _⟩ => rfl)
  rw [val_main_v18_apply, val_main_v17_apply, e]
  exact (Cert.Conv.at1_ix1 x2 f).symm

/-! ## The reference's result is the convolution -/

/-- The reference program's result, as a function of its three arguments, is the convolution. -/
theorem ref_is_conv (x0 : (⟨S200000x300, .f32⟩ : BufTy).Contents (Elt Ideal)) (x1 : (⟨S32x900, .f32⟩ : BufTy).Contents (Elt Ideal)) (x2 : (⟨S32, .f32⟩ : BufTy).Contents (Elt Ideal)) :
    Cert.ReferenceIdeal.Read.val_main_v22 (F := Ideal) x0 x1 x2 = Cert.Conv.conv x0 x1 x2 := by
  funext i
  obtain ⟨f, t, rfl⟩ : ∃ (f : Fin 32) (t : Fin 199998), i = ix2 f t := ⟨i 0, i 1, eq_ix2 i⟩
  have e22 : idx_main_v22 (ix2 f t) = ix2 t f :=
    funext fun a => Fin.ext (by match a with | ⟨0, _⟩ => rfl | ⟨1, _⟩ => rfl)
  rw [val_main_v22_apply, e22, val_main_v21_apply, val_main_v20_apply, val_main_cst_apply, val_main_v19_apply,
    dot_at, bias_at, Cert.Conv.sum_reference]
  rfl

end Cert.ReferenceIdeal.RefValue

end
-- ==== Proof.lean ====
/-
  A one-dimensional convolution with a bias and a clamp at zero, computed two ways.

  The arguments are a sequence `x` of 200000 rows of 300 numbers, 32 filters `w` of 900 weights each (3 consecutive rows
  of 300), and 32 biases `b`. Both programs end holding, at `(f, t)` for `f < 32` and `t < 199998`,

    max (∑ j < 3, ∑ e < 300, w[f, 300 j + e] · x[t + j, e]  +  b[f]) 0          (Proof/Spec.lean, `Cert.Conv.conv`).

  The reference gathers rows `t`, `t + 1`, `t + 2` into one row of 900 and contracts it with the filter
  (Proof/RefRead.lean). The kernel pads the sequence's rows to 384 lanes with zeros and the filters' taps likewise,
  walks the columns `t` in 98 blocks of 2048, at each block multiplying the padded filters [32, 1152] against three
  row-shifted windows of a slab of 2056 padded rows laid side by side, and the host keeps the first 199998 columns
  (Proof/KernelBlock.lean: what a block's stores hold; Proof/KernelPayload.lean: the block's arithmetic at an entry;
  Proof/HostPrefix.lean: the padded arrays at an entry; Proof/KernelArray.lean: the blocks as one array, and the run).
  The two agree over the extended reals by reordering a finite sum and dropping products with a zero factor; neither
  needs the inputs finite. The kernel's idealization rewrote nothing, so it preserves the kernel trivially; the three
  programs' frames are the generated ones (the reference's is its generated run with the result forgotten).
-/
import proofs.«104466_j42159398977944_2_alg».proof.Defs
import proofs.«104466_j42159398977944_2_alg».proof.Proof.Gen.Kernel
import proofs.«104466_j42159398977944_2_alg».proof.Proof.Gen.Kernel.Frame
import proofs.«104466_j42159398977944_2_alg».proof.Proof.Gen.KernelIdeal
import proofs.«104466_j42159398977944_2_alg».proof.Proof.Gen.KernelIdeal.Frame
import proofs.«104466_j42159398977944_2_alg».proof.Proof.Gen.ReferenceIdeal
import proofs.«104466_j42159398977944_2_alg».proof.Proof.Gen.ReferenceIdeal.Run
import proofs.«104466_j42159398977944_2_alg».proof.Proof.Gen.ReferenceIdeal.Read
import proofs.«104466_j42159398977944_2_alg».proof.Proof.Gen.Pre_finite_inputs
import proofs.«104466_j42159398977944_2_alg».proof.Proof.KernelArray
import proofs.«104466_j42159398977944_2_alg».proof.Proof.RefRead
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the three arguments, both idealized programs end with the convolution of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Conv.conv (Cert.KernelIdeal.Result.argX m c) (Cert.KernelIdeal.Result.argW m c) (Cert.KernelIdeal.Result.argB m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v22_eq (F := Ideal) _ _ _).trans ?_
  rw [Cert.ReferenceIdeal.RefValue.ref_is_conv, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
